-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4096 : Shape := ⟨2, ![16384, 4096]⟩
abbrev S8192x4096 : Shape := ⟨2, ![8192, 4096]⟩
abbrev S8192 : Shape := ⟨1, ![8192]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel
  bcast_S_S8192x4096 : S_.BroadcastsInDim S8192x4096 (![] : Fin 0 → Fin S8192x4096.rank)
  reducesTo_S8192x4096_S_d0_1 : S8192x4096.ReducesTo [0, 1] S_
  bcast_S_S8192 : S_.BroadcastsInDim S8192 (![] : Fin 0 → Fin S8192.rank)
  reducesTo_S8192_S_d0 : S8192.ReducesTo [0] S_

variable [Facts]

def fn {F : FTy → Type} [FloatOps F] (main_arg0 : FVec F S16384x4096 .f32) (main_arg1 : FVec F S8192x4096 .f32) (main_arg2 : FVec F S8192 .f32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  let main_v4 : FVec F S8192x4096 .f32 := Host.absf main_arg1
  let main_cst_0 : FVec F S_ .f32 := constant S_ .f32 0x7F800000#32
  let main_v5 : FVec F S8192x4096 .f32 := broadcastInDim S8192x4096 ![] bcast_S_S8192x4096 main_cst_0
  let main_v6 : IVec S8192x4096 1 := cmpf .olt main_v4 main_v5
  let main_c_1 : IVec S_ 1 := constantI S_ 1 1#1
  let main_v7 : IVec S_ 1 := (fun x v => Host.reduce IntOp.andi x v reducesTo_S8192x4096_S_d0_1 h_S_) main_v6 main_c_1
  let main_v8 : IVec S_ 1 := andi main_v3 main_v7
  let main_v9 : FVec F S8192 .f32 := Host.absf main_arg2
  let main_cst_2 : FVec F S_ .f32 := constant S_ .f32 0x7F800000#32
  let main_v10 : FVec F S8192 .f32 := broadcastInDim S8192 ![] bcast_S_S8192 main_cst_2
  let main_v11 : IVec S8192 1 := cmpf .olt main_v9 main_v10
  let main_c_3 : IVec S_ 1 := constantI S_ 1 1#1
  let main_v12 : IVec S_ 1 := (fun x v => Host.reduce IntOp.andi x v reducesTo_S8192_S_d0 h_S_) main_v11 main_c_3
  let main_v13 : IVec S_ 1 := andi main_v8 main_v12
  main_v13
-- ==== Kernel.lean ====
abbrev S16384x4096 : Shape := ⟨2, ![16384, 4096]⟩
abbrev S8192x4096 : Shape := ⟨2, ![8192, 4096]⟩
abbrev S8192 : Shape := ⟨1, ![8192]⟩
abbrev S2048x4x4096 : Shape := ⟨3, ![2048, 4, 4096]⟩
abbrev S_ : Shape := ⟨0, ![]⟩
abbrev S2048x4096 : Shape := ⟨2, ![2048, 4096]⟩
abbrev S2048x4 : Shape := ⟨2, ![2048, 4]⟩
abbrev S2048 : Shape := ⟨1, ![2048]⟩
abbrev S1x2048 : Shape := ⟨2, ![1, 2048]⟩
abbrev S16384x1 : Shape := ⟨2, ![16384, 1]⟩
abbrev S256x4096 : Shape := ⟨2, ![256, 4096]⟩
abbrev S256x1 : Shape := ⟨2, ![256, 1]⟩
abbrev S256x2048 : Shape := ⟨2, ![256, 2048]⟩
abbrev S256 : Shape := ⟨1, ![256]⟩
abbrev S16384 : Shape := ⟨1, ![16384]⟩

abbrev nBuf : Space → Nat
  | .hbm => 19
  | .vmem => 6
  | .smem => 0
  | _ => 0

abbrev bufTy : (tb : Table) → Fin (tcTables nBuf tb) → BufTy
  | .hbm, ⟨0, _⟩ => ⟨S16384x4096, .f32⟩
  | .hbm, ⟨1, _⟩ => ⟨S8192x4096, .f32⟩
  | .hbm, ⟨2, _⟩ => ⟨S8192, .f32⟩
  | .hbm, ⟨3, _⟩ => ⟨S2048x4x4096, .f32⟩
  | .hbm, ⟨4, _⟩ => ⟨S_, .f32⟩
  | .hbm, ⟨5, _⟩ => ⟨S2048x4096, .f32⟩
  | .hbm, ⟨6, _⟩ => ⟨S_, .f32⟩
  | .hbm, ⟨7, _⟩ => ⟨S2048x4096, .f32⟩
  | .hbm, ⟨8, _⟩ => ⟨S2048x4096, .f32⟩
  | .hbm, ⟨9, _⟩ => ⟨S2048x4096, .bf16⟩
  | .hbm, ⟨10, _⟩ => ⟨S2048x4, .f32⟩
  | .hbm, ⟨11, _⟩ => ⟨S_, .f32⟩
  | .hbm, ⟨12, _⟩ => ⟨S2048, .f32⟩
  | .hbm, ⟨13, _⟩ => ⟨S_, .f32⟩
  | .hbm, ⟨14, _⟩ => ⟨S2048, .f32⟩
  | .hbm, ⟨15, _⟩ => ⟨S2048, .f32⟩
  | .hbm, ⟨16, _⟩ => ⟨S1x2048, .f32⟩
  | .hbm, ⟨17, _⟩ => ⟨S16384x1, .f32⟩
  | .hbm, ⟨18, _⟩ => ⟨S16384, .f32⟩
  | .local _ .vmem, ⟨0, _⟩ => ⟨S256x4096, .f32⟩
  | .local _ .vmem, ⟨1, _⟩ => ⟨S256x4096, .f32⟩
  | .local _ .vmem, ⟨2, _⟩ => ⟨S2048x4096, .bf16⟩
  | .local _ .vmem, ⟨3, _⟩ => ⟨S1x2048, .f32⟩
  | .local _ .vmem, ⟨4, _⟩ => ⟨S256x1, .f32⟩
  | .local _ .vmem, ⟨5, _⟩ => ⟨S256x1, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S8192x4096_S2048x4x4096 : S8192x4096.ShapeCasts S2048x4x4096
  reducesTo_S2048x4x4096_S2048x4096_d1 : S2048x4x4096.ReducesTo [1] S2048x4096
  h_S_ : 0 < S_.numel
  bcast_S_S2048x4096 : S_.BroadcastsInDim S2048x4096 (![] : Fin 0 → Fin S2048x4096.rank)
  bitsLt_bf16_f32 : FTy.bits .bf16 < FTy.bits .f32
  shapeCasts_S8192_S2048x4 : S8192.ShapeCasts S2048x4
  reducesTo_S2048x4_S2048_d1 : S2048x4.ReducesTo [1] S2048
  bcast_S_S2048 : S_.BroadcastsInDim S2048 (![] : Fin 0 → Fin S2048.rank)
  shapeCasts_S2048_S1x2048 : S2048.ShapeCasts S1x2048
  inb_S256x4096_S256x4096_0_0 : ∀ a, (![0, 0] : Fin 2 → Nat) a + S256x4096.size a ≤ S256x4096.size a
  h_S256x4096 : 0 < S256x4096.numel
  inb_S2048x4096_S2048x4096_0_0 : ∀ a, (![0, 0] : Fin 2 → Nat) a + S2048x4096.size a ≤ S2048x4096.size a
  h_S2048x4096 : 0 < S2048x4096.numel
  shapeCasts_S2048x4096_S2048x4096 : S2048x4096.ShapeCasts S2048x4096
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S256x2048 : S1x2048.Broadcasts S256x2048
  reduces_S256x2048_S256 : S256x2048.Reduces [1] S256
  shapeCasts_S256_S256x1 : S256.ShapeCasts S256x1
  inb_S256x1_S256x1_0_0 : ∀ a, (![0, 0] : Fin 2 → Nat) a + S256x1.size a ≤ S256x1.size a
  h_S256x1 : 0 < S256x1.numel
  shapeCasts_S16384x1_S16384 : S16384x1.ShapeCasts S16384
  dot_S256x4096_S2048x4096_S256x2048_1_1_0_0_n_n_wf : DotDims.WF S256x4096 S2048x4096 S256x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S16384x4096.size a
  hwx0_0 : ∀ i : grid0.Coords, EltTy.bits .f32 = 32 ∨ (Rect.block (s := S16384x4096) S256x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x4096.size a ≤ S2048x4096.size a
  hwx0_1 : ∀ i : grid0.Coords, EltTy.bits .bf16 = 32 ∨ (Rect.block (s := S2048x4096) S2048x4096.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1.size a ≤ S16384x1.size a
  hwx0_3 : ∀ i : grid0.Coords, EltTy.bits .f32 = 32 ∨ (Rect.block (s := S16384x1) S256x1.size (cc0_transform_3 i) (hinb0_3 i)).WholeWords (EltTy.packing .f32)

variable [Facts₀]

def dot_S256x4096_S2048x4096_S256x2048_1_1_0_0_n_n : DotDims S256x4096 S2048x4096 S256x2048 where
  lhsContracting := [1]
  rhsContracting := [1]
  lhsNonContracting := [0]
  rhsNonContracting := [0]
  lhsBatch := []
  rhsBatch := []
  wf := dot_S256x4096_S2048x4096_S256x2048_1_1_0_0_n_n_wf

abbrev win0_0 : Pipeline.Window sig grid0 :=
  Pipeline.Window.ofSpec (Memref.whole main_arg0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S2048x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S256x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x4096 : Shape := ⟨2, ![16384, 4096]⟩
abbrev S8192x4096 : Shape := ⟨2, ![8192, 4096]⟩
abbrev S8192 : Shape := ⟨1, ![8192]⟩
abbrev S16384x8192 : Shape := ⟨2, ![16384, 8192]⟩
abbrev S1x8192 : Shape := ⟨2, ![1, 8192]⟩
abbrev S16384x2048x4 : Shape := ⟨3, ![16384, 2048, 4]⟩
abbrev S_ : Shape := ⟨0, ![]⟩
abbrev S16384x2048 : Shape := ⟨2, ![16384, 2048]⟩
abbrev S16384 : Shape := ⟨1, ![16384]⟩

abbrev nBuf : Space → Nat
  | .hbm => 35
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S8192x4096, .f32⟩
  | .hbm, ⟨2, _⟩ => ⟨S8192, .f32⟩
  | .hbm, ⟨3, _⟩ => ⟨S16384x8192, .f32⟩
  | .hbm, ⟨4, _⟩ => ⟨S1x8192, .f32⟩
  | .hbm, ⟨5, _⟩ => ⟨S16384x8192, .f32⟩
  | .hbm, ⟨6, _⟩ => ⟨S16384x8192, .f32⟩
  | .hbm, ⟨7, _⟩ => ⟨S16384x2048x4, .f32⟩
  | .hbm, ⟨8, _⟩ => ⟨S_, .f32⟩
  | .hbm, ⟨9, _⟩ => ⟨S16384x2048, .f32⟩
  | .hbm, ⟨10, _⟩ => ⟨S_, .f32⟩
  | .hbm, ⟨11, _⟩ => ⟨S16384x2048, .f32⟩
  | .hbm, ⟨12, _⟩ => ⟨S16384x2048, .f32⟩
  | .hbm, ⟨13, _⟩ => ⟨S_, .f32⟩
  | .hbm, ⟨14, _⟩ => ⟨S16384x2048, .f32⟩
  | .hbm, ⟨15, _⟩ => ⟨S16384x2048, .f32⟩
  | .hbm, ⟨16, _⟩ => ⟨S_, .f32⟩
  | .hbm, ⟨17, _⟩ => ⟨S16384x2048, .f32⟩
  | .hbm, ⟨18, _⟩ => ⟨S16384x2048, .f32⟩
  | .hbm, ⟨19, _⟩ => ⟨S16384x2048, .f32⟩
  | .hbm, ⟨20, _⟩ => ⟨S16384x2048, .f32⟩
  | .hbm, ⟨21, _⟩ => ⟨S16384x2048, .f32⟩
  | .hbm, ⟨22, _⟩ => ⟨S_, .f32⟩
  | .hbm, ⟨23, _⟩ => ⟨S16384x2048, .f32⟩
  | .hbm, ⟨24, _⟩ => ⟨S16384x2048, .f32⟩
  | .hbm, ⟨25, _⟩ => ⟨S16384x2048, .f32⟩
  | .hbm, ⟨26, _⟩ => ⟨S_, .f32⟩
  | .hbm, ⟨27, _⟩ => ⟨S16384x2048, .f32⟩
  | .hbm, ⟨28, _⟩ => ⟨S16384x2048, .f32⟩
  | .hbm, ⟨29, _⟩ => ⟨S16384x2048, .f32⟩
  | .hbm, ⟨30, _⟩ => ⟨S_, .f32⟩
  | .hbm, ⟨31, _⟩ => ⟨S16384x2048, .f32⟩
  | .hbm, ⟨32, _⟩ => ⟨S16384x2048, .f32⟩
  | .hbm, ⟨33, _⟩ => ⟨S_, .f32⟩
  | .hbm, ⟨34, _⟩ => ⟨S16384, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩

abbrev nD : Nat := 1
abbrev τ : Topo := Topo.v7x

variable {F : FTy → Type} [FloatOps F]

class Facts₀ : Prop where
  bcast_S8192_S1x8192_1 : S8192.BroadcastsInDim S1x8192 (![1] : Fin 1 → Fin S1x8192.rank)
  bcast_S1x8192_S16384x8192_0_1 : S1x8192.BroadcastsInDim S16384x8192 (![0, 1] : Fin 2 → Fin S16384x8192.rank)
  shapeCasts_S16384x8192_S16384x2048x4 : S16384x8192.ShapeCasts S16384x2048x4
  reducesTo_S16384x2048x4_S16384x2048_d2 : S16384x2048x4.ReducesTo [2] S16384x2048
  h_S_ : 0 < S_.numel
  bcast_S_S16384x2048 : S_.BroadcastsInDim S16384x2048 (![] : Fin 0 → Fin S16384x2048.rank)
  reducesTo_S16384x2048_S16384_d1 : S16384x2048.ReducesTo [1] S16384
  dot_S16384x4096_S8192x4096_S16384x8192_1_1_0_0_n_n_wf : DotDims.WF S16384x4096 S8192x4096 S16384x8192 [1] [1] [0] [0] [] []

variable [Facts₀]

def dot_S16384x4096_S8192x4096_S16384x8192_1_1_0_0_n_n : DotDims S16384x4096 S8192x4096 S16384x8192 where
  lhsContracting := [1]
  rhsContracting := [1]
  lhsNonContracting := [0]
  rhsNonContracting := [0]
  lhsBatch := []
  rhsBatch := []
  wf := dot_S16384x4096_S8192x4096_S16384x8192_1_1_0_0_n_n_wf

class Facts : Prop extends Facts₀ where

variable [Facts]
-- ==== Proof.LibERealFinite.lean ====
/-
  Two general facts about extended reals read as ideal float values.

  * `coe_sum`: the coercion of the reals into the extended reals commutes with finite sums, so an identity between sums
    and products of real-valued entries can be proved over the reals and carried back.
  * `real_of_abs_lt`: an extended real whose absolute value `max x (-x)` compares strictly below the f32 pattern of `+∞`
    (`0x7F800000`) is a real number — what a "every entry is finite" precondition gives, entry by entry (`inf_eq`: that
    pattern is `⊤`).
-/
import Idealize.ShloMosaic.PureOps.Ideal

noncomputable section

namespace Cert.LibERealFinite

open Idealize.ShloMosaic

/-- The coercion of the reals into the extended reals commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The f32 pattern `0x7F800000` is `+∞`. -/
theorem inf_eq : Ideal.ofBits .f32 0x7F800000#32 = (⊤ : EReal) := by
  simp [Ideal.ofBits, Ideal.ieee]

/-- An extended real whose absolute value compares strictly below `+∞` is a real number. -/
theorem real_of_abs_lt (x : EReal) (h : Ideal.cmp .olt (max x (-x)) (Ideal.ofBits .f32 0x7F800000#32) = 1#1) :
    ∃ v : ℝ, x = (v : EReal) := by
  rw [inf_eq] at h
  induction x using EReal.rec with
  | bot => simp [Ideal.cmp] at h
  | coe v => exact ⟨v, rfl⟩
  | top => simp [Ideal.cmp] at h

end Cert.LibERealFinite

end
-- ==== Proof.PoolLaw.lean ====
/-
  Average pooling over groups of four consecutive output channels is linear, so it commutes with an affine map.

  For a row `r` of `x` and a pooled channel `n` write `member n k = 4 n + k` for the `k`-th channel of the group.
  Pooling AFTER the affine map gives
      (0 + Σ_k (Σ_j x[r,j] · w[4n+k, j] + b[4n+k])) / 4,
  pooling the weight and the bias BEFORE it gives
      Σ_j x[r,j] · ((0 + Σ_k w[4n+k, j]) / 4) + (0 + Σ_k b[4n+k]) / 4.
  On the extended reals the two differ at infinities (distributivity fails there), but when every entry of `x`, `w`
  and `b` is a real number both are the same real: push the coercion out of the sums and products, exchange the two
  finite sums, and distribute the factor 1/4.

  The result of the whole computation at row `r` is the maximum over the 2048 pooled channels, from `-∞`, of
  `act` of that number, where `act p = 0.5 · p · (1 + tanh (c₁ · (p + c₀ · p · p · p))) · 2` with the f32 literals
  kept as their bit patterns (the same words on both sides, never evaluated).
-/
import Idealize.ShloMosaic.PureOps.Ideal
import Idealize.ShloMosaic.PureOps.Ideal.Laws
import Idealize.ShloMosaic.Lib.ValueIdx
import proofs.«135607_j3556232922346_2_alg».proof.Proof.LibERealFinite

noncomputable section

namespace Cert.PoolLaw

open Idealize.ShloMosaic Idealize.ShloMosaic.ValueIdx

/-- Channel `4 n + k`: the `k`-th member of pooled channel `n`'s group of four. -/
def member (n : Fin 2048) (k : Fin 4) : Fin 8192 :=
  ⟨n.val * 4 + k.val, by have := n.isLt; have := k.isLt; omega⟩

theorem member_val (n : Fin 2048) (k : Fin 4) : (member n k).val = n.val * 4 + k.val := rfl

/-- The tanh-form activation, doubled, in the order both programs compute it. -/
def act (p : EReal) : EReal :=
  ((Ideal.ofBits .f32 0x3F000000#32 * p)
    * (Ideal.ofBits .f32 0x3F800000#32
        + Ideal.tanh (Ideal.ofBits .f32 0x3F4C422A#32 * (p + ((Ideal.ofBits .f32 0x3D372713#32 * p) * p) * p))))
    * Ideal.ofBits .f32 0x40000000#32

/-- The maximum of 2048 values, from `-∞`'s bit pattern. -/
def rowMax (f : Fin 2048 → EReal) : EReal :=
  (Finset.univ : Finset (Fin 2048)).fold max (Ideal.ofBits .f32 0xFF800000#32) f

section
variable (x : (⟨2, ![16384, 4096]⟩ : Shape).Idx → EReal) (w : (⟨2, ![8192, 4096]⟩ : Shape).Idx → EReal)
  (b : (⟨1, ![8192]⟩ : Shape).Idx → EReal)

/-- Pooling after the affine map: the mean over the group of `x · w_kᵀ + b_k`. -/
def pooledAfter (r : Fin 16384) (n : Fin 2048) : EReal :=
  Ideal.div (Ideal.ofBits .f32 0x00000000#32
      + ∑ k : Fin 4, ((∑ j : Fin 4096, x (ix2 r j) * w (ix2 (member n k) j)) + b (ix1 (member n k))))
    (Ideal.ofBits .f32 0x40800000#32)

/-- The pooled weight: the mean over the group of the weight's rows. -/
def pooledWeight (n : Fin 2048) (j : Fin 4096) : EReal :=
  Ideal.div (Ideal.ofBits .f32 0x00000000#32 + ∑ k : Fin 4, w (ix2 (member n k) j)) (Ideal.ofBits .f32 0x40800000#32)

/-- The pooled bias: the mean over the group of the bias. -/
def pooledBias (n : Fin 2048) : EReal :=
  Ideal.div (Ideal.ofBits .f32 0x00000000#32 + ∑ k : Fin 4, b (ix1 (member n k))) (Ideal.ofBits .f32 0x40800000#32)

/-- Pooling before the affine map: `x` against the pooled weight, plus the pooled bias. -/
def pooledBefore (r : Fin 16384) (n : Fin 2048) : EReal :=
  (∑ j : Fin 4096, x (ix2 r j) * pooledWeight w n j) + pooledBias b n

/-- The whole computation at row `r`. -/
def result : (⟨1, ![16384]⟩ : Shape).Idx → EReal :=
  fun i => rowMax fun n => act (pooledAfter x w b (i 0) n)
end

/-- The divisor's pattern is the real number four. -/
theorem four_eq : Ideal.ofBits .f32 0x40800000#32 = ((4 : ℝ) : EReal) := by
  simp [Ideal.ofBits, Ideal.ieee, -EReal.coe_mul]; norm_num

/-- The law over the reals: a mean of affine images is the affine image under the mean weight and mean bias. -/
theorem real_law {J K : Type*} [Fintype J] [Fintype K] (X : J → ℝ) (W : K → J → ℝ) (B : K → ℝ) (c : ℝ) :
    (∑ j, X j * ((0 + ∑ k, W k j) * c)) + (0 + ∑ k, B k) * c = (0 + ∑ k, ((∑ j, X j * W k j) + B k)) * c := by
  simp only [zero_add, Finset.sum_add_distrib, add_mul]
  congr 1
  rw [Finset.sum_comm, Finset.sum_mul]
  refine Finset.sum_congr rfl fun j _ => ?_
  rw [← Finset.mul_sum, mul_assoc]

/-- With every entry a real number, pooling before and after the affine map agree. -/
theorem pooled_eq (x : (⟨2, ![16384, 4096]⟩ : Shape).Idx → EReal) (w : (⟨2, ![8192, 4096]⟩ : Shape).Idx → EReal)
    (b : (⟨1, ![8192]⟩ : Shape).Idx → EReal)
    (hx : ∀ i, ∃ v : ℝ, x i = (v : EReal)) (hw : ∀ i, ∃ v : ℝ, w i = (v : EReal)) (hb : ∀ i, ∃ v : ℝ, b i = (v : EReal))
    (r : Fin 16384) (n : Fin 2048) : pooledBefore x w b r n = pooledAfter x w b r n := by
  choose X hX using hx
  choose W hW using hw
  choose B hB using hb
  unfold pooledBefore pooledAfter pooledWeight pooledBias
  simp only [hX, hW, hB, four_eq, Ideal.ofBits_zero_f32, Ideal.div_coe (by norm_num : (4 : ℝ) ≠ 0)]
  rw [← EReal.coe_zero]
  simp only [← EReal.coe_mul, ← EReal.coe_add, ← Cert.LibERealFinite.coe_sum]
  exact congrArg _ (real_law (fun j => X (ix2 r j)) (fun k j => W (ix2 (member n k) j)) (fun k => B (ix1 (member n k))) (1 / 4))

end Cert.PoolLaw

end
-- ==== Proof.RefResult.lean ====
/-
  The reference computes, at row `r`, the maximum over the pooled channels of `act` of the mean over each group of four
  of `x · wᵀ + b`: its matrix product is a sum over the 4096 contracted coordinates, the bias is broadcast along the rows,
  the reshape [16384, 8192] → [16384, 2048, 4] sends (r, n, k) to column 4 n + k, the sum over the last axis and the
  division by four give `pooledAfter`, the pointwise operations are `act`, and the last reduction is a fold of `max`
  over the 2048 channels from `-∞`.
-/
import proofs.«135607_j3556232922346_2_alg».proof.Proof.Gen.ReferenceIdeal.Read
import proofs.«135607_j3556232922346_2_alg».proof.Proof.PoolLaw

noncomputable section

namespace Cert.ReferenceIdeal.RefResult

open Cert.ReferenceIdeal Cert.ReferenceIdeal.Gen Cert.ReferenceIdeal.Read Idealize.ShloMosaic Idealize.ShloMosaic.ValueIdx Cert.PoolLaw

variable (x0 : (⟨S16384x4096, .f32⟩ : BufTy).Contents (Elt Ideal)) (x1 : (⟨S8192x4096, .f32⟩ : BufTy).Contents (Elt Ideal))
  (x2 : (⟨S8192, .f32⟩ : BufTy).Contents (Elt Ideal))

/-- Entry (r, n, k) of the reshaped array is entry (r, 4 n + k) of the affine map's result. -/
theorem reshaped_index (r : Fin 16384) (n : Fin 2048) (k : Fin 4) :
    idx_main_v4 (idx_main_v5 (ix2 r n) k) = ix2 r (member n k) :=
  funext fun a => Fin.ext (by
    have hr := r.isLt; have hn := n.isLt; have hk := k.isLt
    match a with
    | ⟨0, _⟩ => show ((r.val * 2048 + n.val) * 4 + k.val) / 8192 = r.val; omega
    | ⟨1, _⟩ => show ((r.val * 2048 + n.val) * 4 + k.val) % 8192 = n.val * 4 + k.val; omega)

/-- The affine map's result at (r, c): the row of `x` against row `c` of the weight, plus the bias at `c`. -/
theorem affine_at (r : Fin 16384) (c : Fin 8192) :
    val_main_v3 (F := Ideal) x0 x1 x2 (ix2 r c) = (∑ j : Fin 4096, x0 (ix2 r j) * x1 (ix2 c j)) + x2 (ix1 c) := by
  rw [val_main_v3_apply, val_main_v0_apply, val_main_v2_apply, val_main_v1_apply]
  have el : ∀ j : Fin 4096, lidx_main_v0 (ix2 r c) j = ix2 r j := fun j =>
    funext fun a => Fin.ext (by match a with | ⟨0, _⟩ => rfl | ⟨1, _⟩ => rfl)
  have er : ∀ j : Fin 4096, ridx_main_v0 (ix2 r c) j = ix2 c j := fun j =>
    funext fun a => Fin.ext (by match a with | ⟨0, _⟩ => rfl | ⟨1, _⟩ => rfl)
  have eb : idx_main_v1 (idx_main_v2 (ix2 r c)) = ix1 c :=
    funext fun a => Fin.ext (by match a with | ⟨0, _⟩ => rfl)
  simp only [el, er, eb]
  rfl

/-- The pooled value at (r, n) is the mean over the group, taken after the affine map. -/
theorem pooled_at (r : Fin 16384) (n : Fin 2048) :
    val_main_v7 (F := Ideal) x0 x1 x2 (ix2 r n) = pooledAfter x0 x1 x2 r n := by
  rw [val_main_v7_apply, val_main_v5_apply, val_main_v6_apply, val_main_cst_0_apply, val_main_cst_apply]
  unfold pooledAfter
  have e : ∀ k : Fin 4, val_main_v4 (F := Ideal) x0 x1 x2 (idx_main_v5 (ix2 r n) k)
      = (∑ j : Fin 4096, x0 (ix2 r j) * x1 (ix2 (member n k) j)) + x2 (ix1 (member n k)) := fun k => by
    rw [val_main_v4_apply, reshaped_index, affine_at]
  simp only [e]
  rfl

/-- The doubled activation at (r, n). -/
theorem activated_at (r : Fin 16384) (n : Fin 2048) :
    val_main_v22 (F := Ideal) x0 x1 x2 (ix2 r n) = act (pooledAfter x0 x1 x2 r n) := by
  simp only [val_main_v22_apply, val_main_v21_apply, val_main_v20_apply, val_main_v19_apply, val_main_v18_apply,
    val_main_v17_apply, val_main_v16_apply, val_main_v15_apply, val_main_v14_apply, val_main_v13_apply, val_main_v12_apply,
    val_main_v11_apply, val_main_v10_apply, val_main_v9_apply, val_main_v8_apply, val_main_cst_1_apply, val_main_cst_2_apply,
    val_main_cst_3_apply, val_main_cst_4_apply, val_main_cst_5_apply, pooled_at]
  rfl

/-- The reference's result is `result` of its arguments. -/
theorem result_eq : val_main_v23 (F := Ideal) x0 x1 x2 = result x0 x1 x2 := by
  funext i
  obtain ⟨r, rfl⟩ : ∃ r : Fin 16384, i = ix1 r := ⟨i 0, eq_ix1 i⟩
  unfold val_main_v23
  rw [Host.reduce_eq_fold_single (FloatOps.maximumf (F := Ideal) (φ := .f32)) _ _ reducesTo_S16384x2048_S16384_d1
    (by decide : Shape.Reduces S16384x2048 [1] S16384) h_S_ (ix1 r)]
  show (Finset.univ : Finset (Fin 2048)).fold max (Ideal.ofBits .f32 0xFF800000#32)
      (val_main_v22 (F := Ideal) x0 x1 x2 ∘ (by decide : Shape.Reduces S16384x2048 [1] S16384).lift (ix1 r))
    = (Finset.univ : Finset (Fin 2048)).fold max (Ideal.ofBits .f32 0xFF800000#32) fun n => act (pooledAfter x0 x1 x2 r n)
  refine congrArg (fun f : Fin 2048 → EReal => (Finset.univ : Finset (Fin 2048)).fold max (Ideal.ofBits .f32 0xFF800000#32) f)
    (funext fun (n : Fin 2048) => ?_)
  have e : (by decide : Shape.Reduces S16384x2048 [1] S16384).lift (ix1 r) n = ix2 r n :=
    funext fun a => Fin.ext (by match a with | ⟨0, _⟩ => rfl | ⟨1, _⟩ => rfl)
  show val_main_v22 (F := Ideal) x0 x1 x2 ((by decide : Shape.Reduces S16384x2048 [1] S16384).lift (ix1 r) n) = _
  rw [e, activated_at]

end Cert.ReferenceIdeal.RefResult

end
-- ==== Proof.FiniteInputs.lean ====
/-
  The precondition says of each float input that `|x| < +∞` holds at every entry: the conjunction of three "all" reductions
  of the comparison's bits. An extended real whose absolute value `max x (-x)` is strictly below `⊤` is neither `⊤` nor
  `⊥`, so it is a real number. Hence under the precondition every entry of the three inputs is a real.
-/
import proofs.«135607_j3556232922346_2_alg».proof.Pre_finite_inputs
import Idealize.ShloMosaic.PureOps.Ideal
import Idealize.ShloMosaic.Lib.ReduceAll
import Idealize.ShloMosaic.Lib.ValueIdx
import proofs.«135607_j3556232922346_2_alg».proof.Proof.LibERealFinite

noncomputable section

namespace Cert.FiniteInputs

open Idealize.ShloMosaic Idealize.ShloMosaic.ValueIdx Cert.Pre_finite_inputs Cert.LibERealFinite

instance : Subsingleton S_.Idx := ⟨fun _ _ => funext fun d => d.elim0⟩

variable [Cert.Pre_finite_inputs.Facts]

/-- Under the precondition every entry of the three inputs is a real number. -/
theorem real_of_pre (a0 : FVec Ideal S16384x4096 .f32) (a1 : FVec Ideal S8192x4096 .f32) (a2 : FVec Ideal S8192 .f32)
    (h : Cert.Pre_finite_inputs.fn (F := Ideal) a0 a1 a2 = fun _ => 1#1) :
    (∀ i, ∃ v : ℝ, a0 i = (v : EReal)) ∧ (∀ i, ∃ v : ℝ, a1 i = (v : EReal)) ∧ (∀ i, ∃ v : ℝ, a2 i = (v : EReal)) := by
  have h0 := congrFun h ix0
  dsimp only [Cert.Pre_finite_inputs.fn] at h0
  obtain ⟨h01, h2⟩ := IntOp.andi_eq_one.1 h0
  obtain ⟨hx, hw⟩ := IntOp.andi_eq_one.1 h01
  refine ⟨fun i => ?_, fun i => ?_, fun i => ?_⟩
  · exact real_of_abs_lt (a0 i) (Host.reduce_andi_all _ _ _ _ ix0 hx i)
  · exact real_of_abs_lt (a1 i) (Host.reduce_andi_all _ _ _ _ ix0 hw i)
  · exact real_of_abs_lt (a2 i) (Host.reduce_andi_all _ _ _ _ ix0 h2 i)

end Cert.FiniteInputs

end
-- ==== Proof.PooledOperands.lean ====
/-
  What the pallas_call finds in its second and third operands. Before the call the host reshapes the weight
  [8192, 4096] → [2048, 4, 4096] (row 4 n + k becomes (n, k)), sums over the middle axis from zero, divides by four and
  changes the format (the identity on extended reals): entry (n, j) is `pooledWeight w n j`. The bias likewise:
  [8192] → [2048, 4], summed over the last axis, divided by four, viewed as one row [1, 2048]: entry (0, n) is
  `pooledBias b n`.
-/
import proofs.«135607_j3556232922346_2_alg».proof.Proof.Gen.KernelIdeal.Frame
import proofs.«135607_j3556232922346_2_alg».proof.Proof.PoolLaw
import Idealize.ShloMosaic.Lib.StableHlo.Run
import Idealize.ShloMosaic.Lib.Pipeline.Value
import Idealize.ShloMosaic.Lib.ValueIdx
import Idealize.ShloMosaic.PureOps.Ideal.Laws

noncomputable section

namespace Cert.KernelIdeal.Pooled

open Cert.KernelIdeal Cert.KernelIdeal.Gen Idealize.ShloMosaic Idealize.ShloMosaic.TcCoe Idealize.SL.Sem
open Idealize.ShloMosaic.StableHlo Idealize.ShloMosaic.ValueIdx Cert.PoolLaw

/-! ## The host operations, one at a time, at an index -/

/-- The sum over the middle axis of a [2048, 4, 4096] array, from zero, at (n, j). -/
theorem groupSum3_at (y : (⟨S2048x4x4096, .f32⟩ : BufTy).Contents (Elt Ideal)) (n : Fin 2048) (j : Fin 4096) :
    Host.reduceAdd y (constant (F := Ideal) S_ .f32 0x00000000#32) reducesTo_S2048x4x4096_S2048x4096_d1 h_S_ (ix2 n j)
      = Ideal.ofBits .f32 0x00000000#32 + ∑ k : Fin 4, y (ix3 n k j) := by
  simp only [Host.reduceAdd, Ideal.hostReduceAdd_def]
  rw [Ideal.hostReduceAdd_single reducesTo_S2048x4x4096_S2048x4096_d1 (by decide)]
  refine congrArg (_ + ·) (Finset.sum_congr rfl fun k _ => ?_)
  exact congrArg y (funext fun a => Fin.ext (by match a with | ⟨0, _⟩ => rfl | ⟨1, _⟩ => rfl | ⟨2, _⟩ => rfl))

/-- The sum over the last axis of a [2048, 4] array, from zero, at n. -/
theorem groupSum2_at (y : (⟨S2048x4, .f32⟩ : BufTy).Contents (Elt Ideal)) (n : Fin 2048) :
    Host.reduceAdd y (constant (F := Ideal) S_ .f32 0x00000000#32) reducesTo_S2048x4_S2048_d1 h_S_ (ix1 n)
      = Ideal.ofBits .f32 0x00000000#32 + ∑ k : Fin 4, y (ix2 n k) := by
  simp only [Host.reduceAdd, Ideal.hostReduceAdd_def]
  rw [Ideal.hostReduceAdd_single reducesTo_S2048x4_S2048_d1 (by decide)]
  refine congrArg (_ + ·) (Finset.sum_congr rfl fun k _ => ?_)
  exact congrArg y (funext fun a => Fin.ext (by match a with | ⟨0, _⟩ => rfl | ⟨1, _⟩ => rfl))

/-- Entry (n, k, j) of the reshaped weight is entry (4 n + k, j) of the weight. -/
theorem weight_grouped (w : (⟨S8192x4096, .f32⟩ : BufTy).Contents (Elt Ideal)) (n : Fin 2048) (k : Fin 4) (j : Fin 4096) :
    shapeCast S2048x4x4096 w shapeCasts_S8192x4096_S2048x4x4096 (ix3 n k j) = w (ix2 (member n k) j) :=
  shapeCast_apply w shapeCasts_S8192x4096_S2048x4x4096 (ix3 n k j) (ix2 (member n k) j) (by
    rw [Shape.rowMajor_val_two, Shape.rowMajor_val_three]
    show (n.val * 4 + k.val) * 4096 + j.val = (n.val * 4 + k.val) * 4096 + j.val
    rfl)

/-- Entry (n, k) of the reshaped bias is entry 4 n + k of the bias. -/
theorem bias_grouped (b : (⟨S8192, .f32⟩ : BufTy).Contents (Elt Ideal)) (n : Fin 2048) (k : Fin 4) :
    shapeCast S2048x4 b shapeCasts_S8192_S2048x4 (ix2 n k) = b (ix1 (member n k)) :=
  shapeCast_apply b shapeCasts_S8192_S2048x4 (ix2 n k) (ix1 (member n k)) (by
    rw [Shape.rowMajor_val_one, Shape.rowMajor_val_two]
    show n.val * 4 + k.val = n.val * 4 + k.val
    rfl)

/-- The pooled weight, as the host computes it, at (n, j). -/
theorem weightMean_at (w : (⟨S8192x4096, .f32⟩ : BufTy).Contents (Elt Ideal)) (n : Fin 2048) (j : Fin 4096) :
    (truncf .bf16 (Host.divf (Host.reduceAdd (shapeCast S2048x4x4096 w shapeCasts_S8192x4096_S2048x4x4096)
        (constant (F := Ideal) S_ .f32 0x00000000#32) reducesTo_S2048x4x4096_S2048x4096_d1 h_S_)
      (broadcastInDim S2048x4096 ![] bcast_S_S2048x4096 (constant (F := Ideal) S_ .f32 0x40800000#32))) bitsLt_bf16_f32
      : FVec Ideal S2048x4096 .bf16) (ix2 n j) = pooledWeight w n j := by
  show Ideal.div (Host.reduceAdd (shapeCast S2048x4x4096 w shapeCasts_S8192x4096_S2048x4x4096)
        (constant (F := Ideal) S_ .f32 0x00000000#32) reducesTo_S2048x4x4096_S2048x4096_d1 h_S_ (ix2 n j))
      (broadcastInDim S2048x4096 ![] bcast_S_S2048x4096 (constant (F := Ideal) S_ .f32 0x40800000#32) (ix2 n j)) = _
  rw [groupSum3_at, broadcastInDim_apply _ bcast_S_S2048x4096 _ (ix2 n j) ix0 (fun a => a.elim0)]
  unfold pooledWeight
  exact congrArg₂ Ideal.div (congrArg (Ideal.ofBits .f32 0x00000000#32 + ·)
    (Finset.sum_congr rfl fun k _ => weight_grouped w n k j)) rfl

/-- The pooled bias, as the host computes it and lays it out as one row, at (0, n). -/
theorem biasMean_at (b : (⟨S8192, .f32⟩ : BufTy).Contents (Elt Ideal)) (n : Fin 2048) :
    shapeCast S1x2048 (Host.divf (Host.reduceAdd (shapeCast S2048x4 b shapeCasts_S8192_S2048x4)
        (constant (F := Ideal) S_ .f32 0x00000000#32) reducesTo_S2048x4_S2048_d1 h_S_)
      (broadcastInDim S2048 ![] bcast_S_S2048 (constant (F := Ideal) S_ .f32 0x40800000#32))) shapeCasts_S2048_S1x2048
      (ix2 (0 : Fin 1) n) = pooledBias b n := by
  rw [shapeCast_apply _ shapeCasts_S2048_S1x2048 (ix2 (0 : Fin 1) n) (ix1 n) (by
    rw [Shape.rowMajor_val_one, Shape.rowMajor_val_two]
    show n.val = 0 * 2048 + n.val
    omega)]
  show Ideal.div (Host.reduceAdd (shapeCast S2048x4 b shapeCasts_S8192_S2048x4)
        (constant (F := Ideal) S_ .f32 0x00000000#32) reducesTo_S2048x4_S2048_d1 h_S_ (ix1 n))
      (broadcastInDim S2048 ![] bcast_S_S2048 (constant (F := Ideal) S_ .f32 0x40800000#32) (ix1 n)) = _
  rw [groupSum2_at, broadcastInDim_apply _ bcast_S_S2048 _ (ix1 n) ix0 (fun a => a.elim0)]
  unfold pooledBias
  exact congrArg₂ Ideal.div (congrArg (Ideal.ofBits .f32 0x00000000#32 + ·)
    (Finset.sum_congr rfl fun k _ => bias_grouped b n k)) rfl

/-! ## The arrays as the region finds them -/

variable (m : (ℓ : Loc nD τ sig) → Buf (Elt Ideal) ℓ)

/-- The second operand's array when the region is entered: the host's pooled weight of the weight argument. -/
theorem V_weight (c : Dev nD) : (V m c main_v4 : S2048x4096.Idx → EReal)
    = (truncf .bf16 (Host.divf (Host.reduceAdd (shapeCast S2048x4x4096 (m ((c : Thread nD τ).loc main_arg1)) shapeCasts_S8192x4096_S2048x4x4096)
        (constant (F := Ideal) S_ .f32 0x00000000#32) reducesTo_S2048x4x4096_S2048x4096_d1 h_S_)
      (broadcastInDim S2048x4096 ![] bcast_S_S2048x4096 (constant (F := Ideal) S_ .f32 0x40800000#32))) bitsLt_bf16_f32
      : FVec Ideal S2048x4096 .bf16) := by
  show StableHlo.after hostOps0 (fun b => m (c, b)) (Proc.devRef .tc main_v4) = _
  after_results
  rfl

/-- The third operand's array when the region is entered: the host's pooled bias of the bias argument, as one row. -/
theorem V_bias (c : Dev nD) : (V m c main_v9 : S1x2048.Idx → EReal)
    = shapeCast S1x2048 (Host.divf (Host.reduceAdd (shapeCast S2048x4 (m ((c : Thread nD τ).loc main_arg2)) shapeCasts_S8192_S2048x4)
        (constant (F := Ideal) S_ .f32 0x00000000#32) reducesTo_S2048x4_S2048_d1 h_S_)
      (broadcastInDim S2048 ![] bcast_S_S2048 (constant (F := Ideal) S_ .f32 0x40800000#32))) shapeCasts_S2048_S1x2048 := by
  show StableHlo.after hostOps0 (fun b => m (c, b)) (Proc.devRef .tc main_v9) = _
  after_results
  rfl

/-- Entry (n, j) of the second operand is the pooled weight. -/
theorem V_weight_at (c : Dev nD) (n : Fin 2048) (j : Fin 4096) :
    (V m c main_v4 : S2048x4096.Idx → EReal) (ix2 n j) = pooledWeight (m ((c : Thread nD τ).loc main_arg1)) n j :=
  (congrFun (V_weight m c) (ix2 n j)).trans (weightMean_at _ n j)

/-- Entry (0, n) of the third operand is the pooled bias. -/
theorem V_bias_at (c : Dev nD) (n : Fin 2048) :
    (V m c main_v9 : S1x2048.Idx → EReal) (ix2 (0 : Fin 1) n) = pooledBias (m ((c : Thread nD τ).loc main_arg2)) n :=
  (congrFun (V_bias m c) (ix2 (0 : Fin 1) n)).trans (biasMean_at _ n)

end Cert.KernelIdeal.Pooled

end
-- ==== Proof.RowMaxPayload.lean ====
/-
  What the body stores for one block of 256 rows. With `a` the block of `x`, `wp` the pooled weight [2048, 4096] and
  `bp` the pooled bias as one row [1, 2048], the stored [256, 1] vector holds at (p, 0) the maximum over the 2048 pooled
  channels `n`, from `-∞`, of `act (Σ_j a[p, j] · wp[n, j] + bp[0, n])`: the matrix product into a zero accumulator
  is the sum over the contracted coordinate, the bias row is broadcast down the rows, the pointwise operations are
  `act`, the reduction along the lanes is a fold of `max`, and the last cast only adds a unit axis.
-/
import proofs.«135607_j3556232922346_2_alg».proof.Proof.Gen.KernelIdeal.Skeleton
import proofs.«135607_j3556232922346_2_alg».proof.Proof.PoolLaw
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Payload

open Cert.KernelIdeal Cert.KernelIdeal.Gen Idealize.ShloMosaic Idealize.ShloMosaic.ValueIdx Cert.PoolLaw

/-! ## The matrix product at (p, n) -/

theorem lhs_row (i : S256x2048.Idx) (q : dot_S256x4096_S2048x4096_S256x2048_1_1_0_0_n_n.contr.Idx) :
    (dot_S256x4096_S2048x4096_S256x2048_1_1_0_0_n_n.lhsIdx i q 0).val = (i 0).val := by
  unfold DotDims.lhsIdx
  rw [dif_neg (show ¬(0 : Fin S256x4096.rank) ∈ dot_S256x4096_S2048x4096_S256x2048_1_1_0_0_n_n.lhsBatch by decide),
    dif_pos (show (0 : Fin S256x4096.rank) ∈ dot_S256x4096_S2048x4096_S256x2048_1_1_0_0_n_n.lhsNonContracting by decide)]
  rfl
theorem lhs_contr (i : S256x2048.Idx) (q : dot_S256x4096_S2048x4096_S256x2048_1_1_0_0_n_n.contr.Idx) :
    (dot_S256x4096_S2048x4096_S256x2048_1_1_0_0_n_n.lhsIdx i q 1).val = (q ⟨0, by decide⟩).val :=
  dot_S256x4096_S2048x4096_S256x2048_1_1_0_0_n_n.lhsIdx_val_of_single rfl i q
theorem rhs_row (i : S256x2048.Idx) (q : dot_S256x4096_S2048x4096_S256x2048_1_1_0_0_n_n.contr.Idx) :
    (dot_S256x4096_S2048x4096_S256x2048_1_1_0_0_n_n.rhsIdx i q 0).val = (i 1).val := by
  unfold DotDims.rhsIdx
  rw [dif_neg (show ¬(0 : Fin S2048x4096.rank) ∈ dot_S256x4096_S2048x4096_S256x2048_1_1_0_0_n_n.rhsBatch by decide),
    dif_pos (show (0 : Fin S2048x4096.rank) ∈ dot_S256x4096_S2048x4096_S256x2048_1_1_0_0_n_n.rhsNonContracting by decide)]
  rfl
theorem rhs_contr (i : S256x2048.Idx) (q : dot_S256x4096_S2048x4096_S256x2048_1_1_0_0_n_n.contr.Idx) :
    (dot_S256x4096_S2048x4096_S256x2048_1_1_0_0_n_n.rhsIdx i q 1).val = (q ⟨0, by decide⟩).val :=
  dot_S256x4096_S2048x4096_S256x2048_1_1_0_0_n_n.rhsIdx_val_of_single rfl i q

/-- The product of a [256, 4096] block with the transpose of a [2048, 4096] matrix, into zero, at (p, n). -/
theorem product_at (a : FVec Ideal S256x4096 .bf16) (wp : FVec Ideal S2048x4096 .bf16) (p : Fin 256) (n : Fin 2048) :
    matmul dot_S256x4096_S2048x4096_S256x2048_1_1_0_0_n_n none a wp (constant (F := Ideal) S256x2048 .f32 0x00000000#32) (ix2 p n)
      = ∑ j : Fin 4096, a (ix2 p j) * wp (ix2 n j) := by
  simp only [matmul]
  rw [Ideal.matmul_constant_zero_apply,
    ← Equiv.sum_comp (contrEquiv1 dot_S256x4096_S2048x4096_S256x2048_1_1_0_0_n_n 4096 rfl rfl).symm]
  refine Finset.sum_congr rfl fun k _ => ?_
  have hk := contrEquiv1_symm_val dot_S256x4096_S2048x4096_S256x2048_1_1_0_0_n_n 4096 rfl rfl k
  have el : dot_S256x4096_S2048x4096_S256x2048_1_1_0_0_n_n.lhsIdx (ix2 p n)
      ((contrEquiv1 dot_S256x4096_S2048x4096_S256x2048_1_1_0_0_n_n 4096 rfl rfl).symm k) = ix2 p k :=
    funext fun ax => Fin.ext (by
      match ax with
      | ⟨0, _⟩ => exact lhs_row _ _
      | ⟨1, _⟩ => exact (lhs_contr _ _).trans hk)
  have er : dot_S256x4096_S2048x4096_S256x2048_1_1_0_0_n_n.rhsIdx (ix2 p n)
      ((contrEquiv1 dot_S256x4096_S2048x4096_S256x2048_1_1_0_0_n_n 4096 rfl rfl).symm k) = ix2 n k :=
    funext fun ax => Fin.ext (by
      match ax with
      | ⟨0, _⟩ => exact rhs_row _ _
      | ⟨1, _⟩ => exact (rhs_contr _ _).trans hk)
  rw [el, er]

/-! ## The body's value, named piece by piece -/

/-- The affine map on a block: the product plus the bias row broadcast down the rows. -/
def affine (v0 : Vec Ideal S256x4096 .f32) (v2 : Vec Ideal S2048x4096 .bf16) (v5 : Vec Ideal S1x2048 .f32) : FVec Ideal S256x2048 .f32 :=
  addf (matmul dot_S256x4096_S2048x4096_S256x2048_1_1_0_0_n_n none (truncf .bf16 v0 bitsLt_bf16_f32 : FVec Ideal S256x4096 .bf16)
      (shapeCast S2048x4096 v2 shapeCasts_S2048x4096_S2048x4096 : FVec Ideal S2048x4096 .bf16) (constant (F := Ideal) S256x2048 .f32 0x00000000#32))
    (broadcastTo S256x2048 (shapeCast S1x2048 v5 shapeCasts_S1x2048_S1x2048 : FVec Ideal S1x2048 .f32) broadcasts_S1x2048_S256x2048)

/-- The affine map at (p, n). -/
theorem affine_at (v0 : Vec Ideal S256x4096 .f32) (v2 : Vec Ideal S2048x4096 .bf16) (v5 : Vec Ideal S1x2048 .f32)
    (p : Fin 256) (n : Fin 2048) :
    affine v0 v2 v5 (ix2 p n) = (∑ j : Fin 4096, v0 (ix2 p j) * v2 (ix2 n j)) + v5 (ix2 (0 : Fin 1) n) := by
  unfold affine
  rw [shapeCast_self, shapeCast_self]
  show matmul dot_S256x4096_S2048x4096_S256x2048_1_1_0_0_n_n none (truncf .bf16 v0 bitsLt_bf16_f32 : FVec Ideal S256x4096 .bf16) (v2 : FVec Ideal S2048x4096 .bf16)
        (constant (F := Ideal) S256x2048 .f32 0x00000000#32) (ix2 p n)
      + broadcastTo S256x2048 (v5 : FVec Ideal S1x2048 .f32) broadcasts_S1x2048_S256x2048 (ix2 p n) = _
  rw [product_at, broadcastTo_1b_ab_apply]
  rfl

/-- The pointwise part of the body, as a vector operation. -/
def activated (q : FVec Ideal S256x2048 .f32) : FVec Ideal S256x2048 .f32 :=
  mulf (mulf (mulf (broadcast S256x2048 (Scalar.ofBits (F := Ideal) .f32 0x3F000000#32)) q)
      (addf (broadcast S256x2048 (Scalar.ofBits (F := Ideal) .f32 0x3F800000#32))
        (tanh (mulf (broadcast S256x2048 (Scalar.ofBits (F := Ideal) .f32 0x3F4C422A#32))
          (addf q (mulf (mulf (mulf (broadcast S256x2048 (Scalar.ofBits (F := Ideal) .f32 0x3D372713#32)) q) q) q))))))
    (broadcast S256x2048 (Scalar.ofBits (F := Ideal) .f32 0x40000000#32))

/-- It is `act` entry by entry. -/
theorem activated_at (q : FVec Ideal S256x2048 .f32) (i : S256x2048.Idx) : activated q i = act (q i) := rfl

set_option maxRecDepth 65536 in
/-- The body's stored value is the row maximum of the activated affine map, with a unit axis added. -/
theorem payload_eq (v0 : Vec Ideal S256x4096 .f32) (v2 : Vec Ideal S2048x4096 .bf16) (v5 : Vec Ideal S1x2048 .f32) :
    k0_pay1 (F := Ideal) v0 v2 v5
      = shapeCast S256x1 (multiReduction .maximumf [1] S256 (activated (affine v0 v2 v5)) 0xFF800000#32
          reduces_S256x2048_S256 (.inl rfl) rfl) shapeCasts_S256_S256x1 := rfl

/-- The stored value at (p, 0). -/
theorem payload_at (v0 : Vec Ideal S256x4096 .f32) (v2 : Vec Ideal S2048x4096 .bf16) (v5 : Vec Ideal S1x2048 .f32) (p : Fin 256) :
    k0_pay1 (F := Ideal) v0 v2 v5 (ix2 p (0 : Fin 1))
      = rowMax fun n => act ((∑ j : Fin 4096, v0 (ix2 p j) * v2 (ix2 n j)) + v5 (ix2 (0 : Fin 1) n)) := by
  rw [payload_eq]
  refine (shapeCast_apply _ shapeCasts_S256_S256x1 (ix2 p (0 : Fin 1)) (ix1 p) (by
    rw [Shape.rowMajor_val_one, Shape.rowMajor_val_two]
    show p.val = p.val * 1 + 0
    omega)).trans ?_
  refine (Ideal.multiReduction_maximumf_single (activated (affine v0 v2 v5)) 0xFF800000#32 reduces_S256x2048_S256 (.inl rfl) rfl (ix1 p)).trans ?_
  show (Finset.univ : Finset (Fin 2048)).fold max (Ideal.ofBits .f32 0xFF800000#32)
      (activated (affine v0 v2 v5) ∘ reduces_S256x2048_S256.lift (ix1 p)) = _
  unfold rowMax
  refine congrArg (fun f : Fin 2048 → EReal => (Finset.univ : Finset (Fin 2048)).fold max (Ideal.ofBits .f32 0xFF800000#32) f)
    (funext fun (n : Fin 2048) => ?_)
  have e : reduces_S256x2048_S256.lift (ix1 p) n = ix2 p n :=
    funext fun ax => Fin.ext (by match ax with | ⟨0, _⟩ => rfl | ⟨1, _⟩ => rfl)
  show activated (affine v0 v2 v5) (reduces_S256x2048_S256.lift (ix1 p) n) = _
  rw [e, activated_at, affine_at]

end Cert.KernelIdeal.Payload

end
-- ==== Proof.RowMaxValue.lean ====
/-
  The kernel's result as one function of its arguments.

  The grid has 64 points; point `t` stages rows 256 t … 256 t + 255 of `x`, the whole pooled weight and the whole pooled
  bias row, and writes back rows 256 t … 256 t + 255 of a [16384, 1] column. By the body's value at an index, entry
  (256 t + p, 0) of the column is the maximum over the pooled channels of `act` of `pooledBefore` at that row: every
  block is the restriction of ONE whole-array function, `column`. The 64 blocks cover the column (row r is in block
  r / 256), so the array after the run is `column`; the reshape after the call drops the unit axis.
-/
import proofs.«135607_j3556232922346_2_alg».proof.Proof.Gen.KernelIdeal.Frame
import proofs.«135607_j3556232922346_2_alg».proof.Proof.PoolLaw
import proofs.«135607_j3556232922346_2_alg».proof.Proof.PooledOperands
import proofs.«135607_j3556232922346_2_alg».proof.Proof.RowMaxPayload
import Idealize.ShloMosaic.Lib.Pipeline.Value
import Idealize.ShloMosaic.Lib.StableHlo.Run
import Idealize.ShloMosaic.Lib.Tactic

noncomputable section

namespace Cert.KernelIdeal.RowMaxValue

open Cert.KernelIdeal Cert.KernelIdeal.Gen Idealize.ShloMosaic Idealize.ShloMosaic.TcCoe Idealize.SL.Sem
open Idealize.ShloMosaic.ValueIdx Cert.PoolLaw
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The [16384, 1] column the call produces: at (r, 0) the row maximum of the activated, pooled-before affine map. -/
def column (x : (⟨2, ![16384, 4096]⟩ : Shape).Idx → EReal) (w : (⟨2, ![8192, 4096]⟩ : Shape).Idx → EReal)
    (b : (⟨1, ![8192]⟩ : Shape).Idx → EReal) : (⟨2, ![16384, 1]⟩ : Shape).Idx → EReal :=
  fun i => rowMax fun n => act (pooledBefore x w b (i 0) n)

/-- The printed index maps over the grid: the row-blocked windows are at block `t`, the resident ones at block 0. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-! ## The staged blocks, read at an index -/

/-- Row `p` of the block of `x` at point `t` is row `256 t + p` of `x`. -/
theorem xblock_at (c : Dev nD) (t : Fin cfg0.N) (p : Fin 256) (j : Fin 4096) (r : Fin 16384) (hr : r.val = t.val * 256 + p.val) :
    (iblk m c 0 t : Vec Ideal S256x4096 .f32) (ix2 p j)
      = (m ((c : Thread nD τ).loc main_arg0) : S16384x4096.Idx → EReal) (ix2 r j) := by
  obtain ⟨e0, e1, -⟩ := idx_facts t
  unfold iblk
  rw [View.read_apply]
  show V m c main_arg0 _ = _
  rw [V_main_arg0]
  refine congrArg (m ((c : Thread nD τ).loc main_arg0) : S16384x4096.Idx → EReal) (funext fun a => Fin.ext ?_)
  match a with
  | ⟨0, _⟩ => show win0_0.index t (0 : Fin 2) * 256 + 1 * p.val = r.val; rw [e0, hr]; omega
  | ⟨1, _⟩ => show win0_0.index t (1 : Fin 2) * 4096 + 1 * j.val = j.val; rw [e1]; omega

/-- The block of the second operand at any point is the whole pooled weight. -/
theorem wblock_at (c : Dev nD) (t : Fin cfg0.N) (n : Fin 2048) (j : Fin 4096) :
    (iblk m c 1 t : Vec Ideal S2048x4096 .bf16) (ix2 n j) = pooledWeight (m ((c : Thread nD τ).loc main_arg1)) n j := by
  obtain ⟨-, -, e0, e1, -⟩ := idx_facts t
  unfold iblk
  rw [View.read_apply]
  show (V m c main_v4 : S2048x4096.Idx → EReal) _ = _
  refine Eq.trans (congrArg (V m c main_v4 : S2048x4096.Idx → EReal) (funext fun a => Fin.ext ?_)) (Pooled.V_weight_at m c n j)
  match a with
  | ⟨0, _⟩ => show win0_1.index t (0 : Fin 2) * 2048 + 1 * n.val = n.val; rw [e0]; omega
  | ⟨1, _⟩ => show win0_1.index t (1 : Fin 2) * 4096 + 1 * j.val = j.val; rw [e1]; omega

/-- The block of the third operand at any point is the whole pooled bias row. -/
theorem bblock_at (c : Dev nD) (t : Fin cfg0.N) (n : Fin 2048) :
    (iblk m c 2 t : Vec Ideal S1x2048 .f32) (ix2 (0 : Fin 1) n) = pooledBias (m ((c : Thread nD τ).loc main_arg2)) n := by
  obtain ⟨-, -, -, -, e0, e1, -⟩ := idx_facts t
  unfold iblk
  rw [View.read_apply]
  show (V m c main_v9 : S1x2048.Idx → EReal) _ = _
  refine Eq.trans (congrArg (V m c main_v9 : S1x2048.Idx → EReal) (funext fun a => Fin.ext ?_)) (Pooled.V_bias_at m c n)
  match a with
  | ⟨0, _⟩ => show win0_2.index t (0 : Fin 2) * 1 + 1 * 0 = 0; rw [e0]
  | ⟨1, _⟩ => show win0_2.index t (1 : Fin 2) * 2048 + 1 * n.val = n.val; rw [e1]; omega

/-! ## What a point writes back -/

/-- From blocks that are rows of `x`, the pooled weight and the pooled bias, the body's value at (p, 0) is the column at
    the row the block's row `p` is. -/
theorem block_row (x0 : Vec Ideal S256x4096 .f32) (x1 : Vec Ideal S2048x4096 .bf16) (x2 : Vec Ideal S1x2048 .f32)
    (x : (⟨2, ![16384, 4096]⟩ : Shape).Idx → EReal) (w : (⟨2, ![8192, 4096]⟩ : Shape).Idx → EReal)
    (b : (⟨1, ![8192]⟩ : Shape).Idx → EReal) (p : Fin 256) (r : Fin 16384)
    (h0 : ∀ j : Fin 4096, x0 (ix2 p j) = x (ix2 r j)) (h1 : ∀ (n : Fin 2048) (j : Fin 4096), x1 (ix2 n j) = pooledWeight w n j)
    (h2 : ∀ n : Fin 2048, x2 (ix2 (0 : Fin 1) n) = pooledBias b n) :
    k0_pay1 (F := Ideal) x0 x1 x2 (ix2 p (0 : Fin 1)) = column x w b (ix2 r (0 : Fin 1)) := by
  rw [Payload.payload_at]
  unfold column pooledBefore
  simp only [h0, h1, h2]

/-- What point `t` writes back is block `t` of `column` of the arguments. -/
theorem flushed_eq (c : Dev nD) (t : Fin cfg0.N) :
    (dats m 0 c).flushed 3 t = ((cfg0.win 3).blk t).view.read (Elt Ideal)
      (column (m ((c : Thread nD τ).loc main_arg0)) (m ((c : Thread nD τ).loc main_arg1)) (m ((c : Thread nD τ).loc main_arg2))) := by
  show (cfg0.win 3).cut (grid0.coords t) ((dats m 0 c).after 3 t) = _
  rw [after0_3]
  unfold out0_3
  rw [View.canon_unit_zero hz]
  simp only [View.ld_unit_zero (S := S256x4096) hz, View.ld_unit_zero (S := S2048x4096) hz, View.ld_unit_zero (S := S1x2048) hz]
  obtain ⟨-, -, -, -, -, -, e6, e7⟩ := idx_facts t
  funext y
  have ht : t.val < 64 := by have h := t.isLt; have hN : cfg0.N = 64 := N_0; omega
  have hp : (y 0).val < 256 := (y 0).isLt
  have hq : (y 1).val < 1 := (y 1).isLt
  have hy : (cfg0.win 3).xinj (grid0.coords t) y = ix2 (⟨(y 0).val, hp⟩ : Fin 256) (0 : Fin 1) :=
    funext fun a => Fin.ext (by
      match a with
      | ⟨0, _⟩ => rfl
      | ⟨1, _⟩ => show (y 1).val = 0; omega)
  have hi : ((cfg0.win 3).blk t).view.emb y = ix2 (⟨t.val * 256 + (y 0).val, by omega⟩ : Fin 16384) (0 : Fin 1) :=
    funext fun a => Fin.ext (by
      match a with
      | ⟨0, _⟩ => show win0_3.index t (0 : Fin 2) * 256 + 1 * (y 0).val = t.val * 256 + (y 0).val; rw [e6]; omega
      | ⟨1, _⟩ => show win0_3.index t (1 : Fin 2) * 1 + 1 * (y 1).val = 0; rw [e7]; omega)
  rw [View.read_apply]
  show k0_pay1 (F := Ideal) (iblk m c 0 t) (iblk m c 1 t) (iblk m c 2 t) ((cfg0.win 3).xinj (grid0.coords t) y)
    = column _ _ _ (((cfg0.win 3).blk t).view.emb y)
  rw [hy, hi]
  exact block_row (iblk m c 0 t) (iblk m c 1 t) (iblk m c 2 t) _ _ _ ⟨(y 0).val, hp⟩ ⟨t.val * 256 + (y 0).val, by omega⟩
    (fun j => xblock_at m c t ⟨(y 0).val, hp⟩ j ⟨t.val * 256 + (y 0).val, by omega⟩ rfl)
    (fun n j => wblock_at m c t n j) (fun n => bblock_at m c t n)

/-! ## The cover, and the array after the run -/

/-- An index of the column is in point `t`'s block iff each coordinate is in the block's range on its axis. -/
theorem mem_blk (t : Fin cfg0.N) (i : S16384x1.Idx) :
    i ∈ ((cfg0.win 3).blk t).view.set ↔ ∀ a : Fin 2, win0_3.index t a * S256x1.size a ≤ (i a).val ∧ (i a).val < win0_3.index t a * S256x1.size a + S256x1.size a := by
  show i ∈ ((View.whole main_v10).slice (win0_3.rect t)).set ↔ _
  rw [View.set_slice_whole, Rect.mem_set_unit]
  exact Iff.rfl

/-- Row `r` of the column is written back by point `r / 256`. -/
theorem cover (i : S16384x1.Idx) : ∃ t : Fin cfg0.N, (cfg0.win 3).flush t = true ∧ i ∈ ((cfg0.win 3).blk t).view.set := by
  have hi0 : (i 0).val < 16384 := (i 0).isLt
  have hi1 : (i 1).val < 1 := (i 1).isLt
  have hN : cfg0.N = 64 := N_0
  refine ⟨⟨(i 0).val / 256, by rw [hN]; omega⟩, flush0_3 _, ?_⟩
  rw [mem_blk]
  obtain ⟨-, -, -, -, -, -, e6, e7⟩ := idx_facts ⟨(i 0).val / 256, by rw [hN]; omega⟩
  intro a
  match a with
  | ⟨0, _⟩ =>
    show win0_3.index ⟨(i 0).val / 256, _⟩ (0 : Fin 2) * 256 ≤ (i 0).val ∧ (i 0).val < win0_3.index ⟨(i 0).val / 256, _⟩ (0 : Fin 2) * 256 + 256
    rw [e6]; show (i 0).val / 256 * 256 ≤ (i 0).val ∧ (i 0).val < (i 0).val / 256 * 256 + 256; omega
  | ⟨1, _⟩ =>
    show win0_3.index ⟨(i 0).val / 256, _⟩ (1 : Fin 2) * 1 ≤ (i 1).val ∧ (i 1).val < win0_3.index ⟨(i 0).val / 256, _⟩ (1 : Fin 2) * 1 + 1
    rw [e7]; omega

/-- The call's output array after the run is `column` of the arguments. -/
theorem final (c : Dev nD) : (dats m 0 c).arrAt 3 cfg0.N
    = column (m ((c : Thread nD τ).loc main_arg0)) (m ((c : Thread nD τ).loc main_arg1)) (m ((c : Thread nD τ).loc main_arg2)) :=
  (dats m 0 c).arrAt_eq_of_cover 3 _ (fun t _ => flushed_eq m c t) cover

/-! ## The reshape after the call -/

/-- The program's result: the column with its unit axis dropped. -/
theorem tail (c : Dev nD) : (Pipeline.afterTail₀ cfgs (dats m) 0 (V0 m) [hostOps1] c main_v11 : S16384.Idx → EReal)
    = shapeCast S16384 (column (m ((c : Thread nD τ).loc main_arg0)) (m ((c : Thread nD τ).loc main_arg1)) (m ((c : Thread nD τ).loc main_arg2))) shapeCasts_S16384x1_S16384 := by
  have e : Pipeline.withArrays spec0 c (V0 m c) (fun w => (dats m 0 c).arrAt w cfg0.N) (Proc.devRef .tc main_v10)
      = column (m ((c : Thread nD τ).loc main_arg0)) (m ((c : Thread nD τ).loc main_arg1)) (m ((c : Thread nD τ).loc main_arg2)) :=
    (Pipeline.withArrays_arr spec0 launch0.win.arr_inj c _ _ 3).trans (final m c)
  unfold Pipeline.afterTail₀
  show StableHlo.after hostOps1 _ (Proc.devRef .tc main_v11) = _
  after_results
  exact congrArg (fun A : S16384x1.Idx → EReal => shapeCast S16384 A shapeCasts_S16384x1_S16384) e

/-- With every entry of the arguments a real number, the column with its unit axis dropped is `result`: entry `r` reads
    the column at (r, 0), and there pooling before the affine map is pooling after it. -/
theorem squeezed_column_eq (x : (⟨2, ![16384, 4096]⟩ : Shape).Idx → EReal) (w : (⟨2, ![8192, 4096]⟩ : Shape).Idx → EReal)
    (b : (⟨1, ![8192]⟩ : Shape).Idx → EReal)
    (hx : ∀ i, ∃ v : ℝ, x i = (v : EReal)) (hw : ∀ i, ∃ v : ℝ, w i = (v : EReal)) (hb : ∀ i, ∃ v : ℝ, b i = (v : EReal)) :
    shapeCast S16384 (column x w b) shapeCasts_S16384x1_S16384 = result x w b := by
  funext i
  obtain ⟨r, rfl⟩ : ∃ r : Fin 16384, i = ix1 r := ⟨i 0, eq_ix1 i⟩
  rw [shapeCast_apply (column x w b) shapeCasts_S16384x1_S16384 (ix1 r) (ix2 r (0 : Fin 1)) (by
    rw [Shape.rowMajor_val_two, Shape.rowMajor_val_one]
    show r.val * 1 + 0 = r.val
    omega)]
  show rowMax (fun n => act (pooledBefore x w b r n)) = rowMax fun n => act (pooledAfter x w b r n)
  simp only [pooled_eq x w b hx hw hb]

end Cert.KernelIdeal.RowMaxValue

end
-- ==== Proof.lean ====
/-
  A dense layer, an average pool over groups of four output channels, a tanh-form GELU, a doubling and a row maximum:
  the kernel against its reference, over the extended reals.

  The reference computes y = x · wᵀ + b on all 8192 channels, averages each group of four consecutive channels, applies
  `act p = 0.5 · p · (1 + tanh (c₁ · (p + c₀ · p · p · p))) · 2` and takes each row's maximum over the 2048 pooled channels.
  The kernel first averages the weight's rows and the bias in groups of four on the host, and its pallas_call then computes
  x · w̄ᵀ + b̄ for a block of 256 rows at a time, the same `act`, and the row maximum; a final reshape drops a unit axis.

  The two agree because averaging is linear: the mean over a group of `Σ_j x_j · w_kj + b_k` is
  `Σ_j x_j · mean_k w_kj + mean_k b_k`. That step distributes a factor over sums and exchanges two finite sums, which is
  valid for real numbers but not at infinities — so the precondition that every input entry is finite is used, exactly there
  (`PoolLaw.pooled_eq`). Everything else is the same operation on both sides: the matrix products are sums over the
  contracted coordinate, a change of float format is the identity, and both maxima are folds of `max` from `-∞` over the
  same 2048 values.

  Modules: `PoolLaw` (the specification and the law), `RefResult` (the reference's result is the specification),
  `PooledOperands` (what the host hands the call), `RowMaxPayload` (the body's value at an index), `RowMaxValue` (the call's
  output array and the program's result as one function of the arguments), `FiniteInputs` (the precondition read back).
-/
import proofs.«135607_j3556232922346_2_alg».proof.Defs
import proofs.«135607_j3556232922346_2_alg».proof.Proof.Gen.Kernel
import proofs.«135607_j3556232922346_2_alg».proof.Proof.Gen.Kernel.Skeleton
import proofs.«135607_j3556232922346_2_alg».proof.Proof.Gen.Kernel.Launch
import proofs.«135607_j3556232922346_2_alg».proof.Proof.Gen.Kernel.Points
import proofs.«135607_j3556232922346_2_alg».proof.Proof.Gen.Kernel.Frame
import proofs.«135607_j3556232922346_2_alg».proof.Proof.Gen.KernelIdeal
import proofs.«135607_j3556232922346_2_alg».proof.Proof.Gen.KernelIdeal.Skeleton
import proofs.«135607_j3556232922346_2_alg».proof.Proof.Gen.KernelIdeal.Launch
import proofs.«135607_j3556232922346_2_alg».proof.Proof.Gen.KernelIdeal.Points
import proofs.«135607_j3556232922346_2_alg».proof.Proof.Gen.KernelIdeal.Frame
import proofs.«135607_j3556232922346_2_alg».proof.Proof.Gen.ReferenceIdeal
import proofs.«135607_j3556232922346_2_alg».proof.Proof.Gen.Pre_finite_inputs
import proofs.«135607_j3556232922346_2_alg».proof.Proof.Gen.ReferenceIdeal.Read
import proofs.«135607_j3556232922346_2_alg».proof.Proof.PoolLaw
import proofs.«135607_j3556232922346_2_alg».proof.Proof.RefResult
import proofs.«135607_j3556232922346_2_alg».proof.Proof.FiniteInputs
import proofs.«135607_j3556232922346_2_alg».proof.Proof.RowMaxValue
import Idealize.ShloMosaic.Adequacy
import Idealize.ShloMosaic.Init

noncomputable section

namespace Cert.Proof

open Idealize.ShloMosaic Idealize.ShloMosaic.TcCoe Idealize.SL.Sem

/-! ## The three frames and the idealization -/

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-! ## The kernel's run, read -/

section KernelRun
open Cert.KernelIdeal Cert.KernelIdeal.Gen Cert.KernelIdeal.RowMaxValue

/-- Under the precondition the idealized kernel ends with its result at `PoolLaw.result` of its arguments (the call's
    column with the unit axis dropped, which is `result` since every entry is a real) and its arguments unchanged. -/
theorem kernel_run (m : (ℓ : Loc nD τ sig) → Buf (Elt Ideal) ℓ) (ρ : Dev nD → PrngReg) (hpre : Cert.Pre_KernelIdeal m) :
    θ_run (defs (F := Ideal)) (onTc (τ := τ) (main (F := Ideal))) ⟨m, fun _ => 0, ρ⟩ (fun r => ∀ c : Dev nD,
      r.2.mem ((c.tc : Thread nD τ).loc main_v11)
        = Cert.PoolLaw.result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v11 (Pipeline.mem_restRefs_of main_v11 (by decide) (by decide))).trans
        ((tail m c).trans (by
          obtain ⟨hx, hw, hb⟩ := Cert.FiniteInputs.real_of_pre _ _ _ (hpre c)
          exact squeezed_column_eq _ _ _ hx hw hb)),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end KernelRun

/-! ## The two idealized programs agree -/

/-- Both runs end with their result at `PoolLaw.result` of arguments that agree. -/
theorem algebraic : Cert.algebraic_KernelIdeal_ReferenceIdeal := by
  intro m ρ m' ρ' hpre hagree
  refine ⟨fun c => Cert.PoolLaw.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), kernel_run m ρ hpre, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v23_eq, Cert.ReferenceIdeal.RefResult.result_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
